-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x4096 : Shape := ⟨3, ![8, 8192, 4096]⟩
abbrev S8192x4096 : Shape := ⟨2, ![8192, 4096]⟩
abbrev S4096 : Shape := ⟨1, ![4096]⟩
abbrev S_ : Shape := ⟨0, ![]⟩

class Facts : Prop where
  bcast_S_S8x8192x4096 : S_.BroadcastsInDim S8x8192x4096 (![] : Fin 0 → Fin S8x8192x4096.rank)
  reducesTo_S8x8192x4096_S_d0_1_2 : S8x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x8192x4096 .f32) (main_arg1 : FVec F S8192x4096 .f32) (main_arg2 : FVec F S4096 .f32) : IVec S_ 1 :=
  let main_v0 : FVec F S8x8192x4096 .f32 := Host.absf main_arg0
  let main_cst : FVec F S_ .f32 := constant S_ .f32 0x7F800000#32
  let main_v1 : FVec F S8x8192x4096 .f32 := broadcastInDim S8x8192x4096 ![] bcast_S_S8x8192x4096 main_cst
  let main_v2 : IVec S8x8192x4096 1 := cmpf .olt main_v0 main_v1
  let main_c : IVec S_ 1 := constantI S_ 1 1#1
  let main_v3 : IVec S_ 1 := (fun x v => Host.reduce IntOp.andi x v reducesTo_S8x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x8192x4096 : Shape := ⟨3, ![8, 8192, 4096]⟩
abbrev S8192x4096 : Shape := ⟨2, ![8192, 4096]⟩
abbrev S4096 : Shape := ⟨1, ![4096]⟩
abbrev S1x4096 : Shape := ⟨2, ![1, 4096]⟩
abbrev S8x64x4096 : Shape := ⟨3, ![8, 64, 4096]⟩
abbrev S64x4096 : Shape := ⟨2, ![64, 4096]⟩
abbrev S1x64x4096 : Shape := ⟨3, ![1, 64, 4096]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .local _ .vmem, ⟨0, _⟩ => ⟨S8x64x4096, .f32⟩
  | .local _ .vmem, ⟨1, _⟩ => ⟨S8x64x4096, .f32⟩
  | .local _ .vmem, ⟨2, _⟩ => ⟨S64x4096, .f32⟩
  | .local _ .vmem, ⟨3, _⟩ => ⟨S64x4096, .f32⟩
  | .local _ .vmem, ⟨4, _⟩ => ⟨S1x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | _, _ => ⟨S8x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S8x64x4096_S1x64x4096_0_0_0 : ∀ a, (![0, 0, 0] : Fin 3 → Nat) a + S1x64x4096.size a ≤ S8x64x4096.size a
  h_S1x64x4096 : 0 < S1x64x4096.numel
  shapeCasts_S1x64x4096_S64x4096 : S1x64x4096.ShapeCasts S64x4096
  inb_S64x4096_S64x4096_0_0 : ∀ a, (![0, 0] : Fin 2 → Nat) a + S64x4096.size a ≤ S64x4096.size a
  h_S64x4096 : 0 < S64x4096.numel
  inb_S8x64x4096_S1x64x4096_1_0_0 : ∀ a, (![1, 0, 0] : Fin 3 → Nat) a + S1x64x4096.size a ≤ S8x64x4096.size a
  inb_S8x64x4096_S1x64x4096_2_0_0 : ∀ a, (![2, 0, 0] : Fin 3 → Nat) a + S1x64x4096.size a ≤ S8x64x4096.size a
  inb_S8x64x4096_S1x64x4096_3_0_0 : ∀ a, (![3, 0, 0] : Fin 3 → Nat) a + S1x64x4096.size a ≤ S8x64x4096.size a
  inb_S8x64x4096_S1x64x4096_4_0_0 : ∀ a, (![4, 0, 0] : Fin 3 → Nat) a + S1x64x4096.size a ≤ S8x64x4096.size a
  inb_S8x64x4096_S1x64x4096_5_0_0 : ∀ a, (![5, 0, 0] : Fin 3 → Nat) a + S1x64x4096.size a ≤ S8x64x4096.size a
  inb_S8x64x4096_S1x64x4096_6_0_0 : ∀ a, (![6, 0, 0] : Fin 3 → Nat) a + S1x64x4096.size a ≤ S8x64x4096.size a
  inb_S8x64x4096_S1x64x4096_7_0_0 : ∀ a, (![7, 0, 0] : Fin 3 → Nat) a + S1x64x4096.size a ≤ S8x64x4096.size a
  reduces_S64x4096_S64 : S64x4096.Reduces [1] S64
  shapeCasts_S64_S64x1 : S64.ShapeCasts S64x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S64x1_S64x4096 : S64x1.Broadcasts S64x4096
  broadcasts_S1x4096_S64x4096 : S1x4096.Broadcasts S64x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x4096.size a ≤ S8x8192x4096.size a
  hwx0_0 : ∀ i : grid0.Coords, EltTy.bits .f32 = 32 ∨ (Rect.block (s := S8x8192x4096) S8x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S8192x4096.size a
  hwx0_1 : ∀ i : grid0.Coords, EltTy.bits .f32 = 32 ∨ (Rect.block (s := S8192x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S8192x4096.size a
  hwx0_3 : ∀ i : grid0.Coords, EltTy.bits .f32 = 32 ∨ (Rect.block (s := S8192x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S8192x4096.size a
  hwx0_4 : ∀ i : grid0.Coords, EltTy.bits .f32 = 32 ∨ (Rect.block (s := S8192x4096) S64x4096.size (cc0_transform_4 i) (hinb0_4 i)).WholeWords (EltTy.packing .f32)

variable [Facts₀]

abbrev win0_0 : Pipeline.Window sig grid0 :=
  Pipeline.Window.ofSpec (Memref.whole main_arg0) S8x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x4096 : Shape := ⟨3, ![8, 8192, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x8192x4096_S8192x4096_d0 : S8x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.RmsSpec.lean ====
/-
  The mathematics both programs compute, on the extended reals.

  Eight ranks' partial results are summed entry by entry (the all-reduce), the residual is added, and every row of the
  4096-wide result is scaled by the reciprocal square root of its mean square plus a small constant, then by a weight
  per column:
      a(r, c)   = (Σ_k x(k, r, c)) + res(r, c)
      out(r, c) = a(r, c) · rsqrt((Σ_c' a(r, c')²) / 4096 + ε) · w(c).
  The only law used between the two programs is that addition of extended reals is commutative and associative (the
  nine summands of one entry are added in two different orders) and that the zero word is the additive identity; no
  entry has to be finite for that.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.RmsSpec

/-- One entry after the all-reduce and the residual add: the eight ranks' entries summed, plus the residual's. -/
def acc (xs : Fin 8 → EReal) (r : EReal) : EReal := (∑ k : Fin 8, xs k) + r

/-- Rank 0 plus the residual first, then ranks 1 to 7 one after the other: the same nine summands. -/
theorem acc_chain (xs : Fin 8 → EReal) (r : EReal) :
    xs 0 + r + xs 1 + xs 2 + xs 3 + xs 4 + xs 5 + xs 6 + xs 7 = acc xs r := by
  unfold acc
  rw [Fin.sum_univ_eight]
  abel

/-- A sum over the ranks that starts from the zero word, then the residual. -/
theorem acc_from_zero (xs : Fin 8 → EReal) (r : EReal) :
    Ideal.ofBits .f32 0x00000000#32 + (∑ k : Fin 8, xs k) + r = acc xs r := by
  unfold acc
  rw [Ideal.ofBits_zero_f32, zero_add]

/-- A row's scale: the reciprocal square root of its mean square (the sum of squares divided by 4096.0) plus ε (the f32
    nearest 1e-6; the same word in both programs, so its value is never needed). -/
def scale (row : Fin 4096 → EReal) : EReal :=
  Ideal.rsqrt (Ideal.div (∑ c : Fin 4096, row c * row c) (Ideal.ofBits .f32 0x45800000#32) + Ideal.ofBits .f32 0x358637BD#32)

/-- The same scale when the sum of squares starts from the zero word. -/
theorem scale_from_zero (row : Fin 4096 → EReal) :
    Ideal.rsqrt (Ideal.div (Ideal.ofBits .f32 0x00000000#32 + ∑ c : Fin 4096, row c * row c) (Ideal.ofBits .f32 0x45800000#32)
      + Ideal.ofBits .f32 0x358637BD#32) = scale row := by
  unfold scale
  rw [Ideal.ofBits_zero_f32, zero_add]

/-- One entry of the normalised output: the entry `a` of its row, times the row's scale, times the column's weight `g`. -/
def normed (row : Fin 4096 → EReal) (a g : EReal) : EReal := a * scale row * g

/-! ## The two result arrays as functions of the three argument arrays -/

abbrev SX : Shape := ⟨3, ![8, 8192, 4096]⟩
abbrev SR : Shape := ⟨2, ![8192, 4096]⟩
abbrev SW : Shape := ⟨1, ![4096]⟩

/-- Entry (r, c) of the all-reduced array plus the residual. -/
def resid (X : SX.Idx → EReal) (R : SR.Idx → EReal) (r : Fin 8192) (c : Fin 4096) : EReal :=
  acc (fun k => X (ix3 k r c)) (R (ix2 r c))

/-- The second result: the all-reduced array plus the residual. -/
def residArr (X : SX.Idx → EReal) (R : SR.Idx → EReal) : SR.Idx → EReal :=
  fun i => resid X R (i 0) (i 1)

/-- The first result: every row of it RMS-normalised and weighted. -/
def normedArr (X : SX.Idx → EReal) (R : SR.Idx → EReal) (w : SW.Idx → EReal) : SR.Idx → EReal :=
  fun i => normed (fun c => resid X R (i 0) c) (resid X R (i 0) (i 1)) (w (ix1 (i 1)))

end Cert.RmsSpec

end
-- ==== Proof.RefValue.lean ====
/-
  The reference, read entry by entry: its two results are the two arrays of the specification.

  The reference sums the eight ranks from a zero constant, adds the residual, squares, sums every row of squares from a
  zero constant, divides by 4096.0, adds ε, takes the reciprocal square root, and multiplies the row by it and then by
  the weights. Dropping the two zero constants is all that separates this from the specification.
-/
import proofs.«136057_j4492535792389_2_alg».proof.Proof.Gen.ReferenceIdeal.Read
import proofs.«136057_j4492535792389_2_alg».proof.Proof.RmsSpec

noncomputable section

open scoped BigOperators
open Idealize.ShloMosaic Idealize.ShloMosaic.ValueIdx

namespace Cert.RefValue

open Cert.ReferenceIdeal Cert.ReferenceIdeal.Read Cert.RmsSpec

variable (X : (⟨S8x8192x4096, .f32⟩ : BufTy).Contents (Elt Ideal)) (R : (⟨S8192x4096, .f32⟩ : BufTy).Contents (Elt Ideal))
  (w : (⟨S4096, .f32⟩ : BufTy).Contents (Elt Ideal))

/-- The sum over ranks plus the residual, at entry (r, c). -/
theorem sum_plus_residual_at (r : Fin 8192) (c : Fin 4096) :
    val_main_v1 (F := Ideal) X R (ix2 r c) = resid X R r c := by
  rw [val_main_v1_apply, val_main_v0_apply]
  have e : (fun k : Fin 8 => X (idx_main_v0 (ix2 r c) k)) = fun k => X (ix3 k r c) :=
    funext fun k => congrArg X (funext fun a => Fin.ext (by match a with | ⟨0, _⟩ => rfl | ⟨1, _⟩ => rfl | ⟨2, _⟩ => rfl))
  show Ideal.ofBits .f32 0x00000000#32 + (∑ k : Fin 8, X (idx_main_v0 (ix2 r c) k)) + R (ix2 r c) = _
  rw [e]
  exact acc_from_zero _ _

/-- Row r's sum of squares, from the zero constant. -/
theorem row_squares_at (r : Fin 8192) :
    val_main_v3 (F := Ideal) X R (ix1 r)
      = Ideal.ofBits .f32 0x00000000#32 + ∑ c : Fin 4096, resid X R r c * resid X R r c := by
  rw [val_main_v3_apply]
  refine congrArg (_ + ·) (Finset.sum_congr rfl fun c _ => ?_)
  have e : idx_main_v3 (ix1 r) c = ix2 r c :=
    funext fun a => Fin.ext (by match a with | ⟨0, _⟩ => rfl | ⟨1, _⟩ => rfl)
  rw [e, val_main_v2_apply, sum_plus_residual_at]
  rfl

/-- The normalised, weighted output at entry (r, c). -/
theorem normed_at (r : Fin 8192) (c : Fin 4096) :
    val_main_v14 (F := Ideal) X R w (ix2 r c) = normedArr X R w (ix2 r c) := by
  have e1 : idx_main_v4 (idx_main_v10 (ix2 r c)) = ix1 r :=
    funext fun a => Fin.ext (by match a with | ⟨0, _⟩ => rfl)
  have e2 : idx_main_v12 (idx_main_v13 (ix2 r c)) = ix1 c :=
    funext fun a => Fin.ext (by match a with | ⟨0, _⟩ => rfl)
  rw [val_main_v14_apply, val_main_v11_apply, val_main_v10_apply, val_main_v9_apply, val_main_v8_apply,
    val_main_v6_apply, val_main_v4_apply, val_main_v7_apply, val_main_v5_apply, val_main_v13_apply,
    val_main_v12_apply, e1, e2, row_squares_at, sum_plus_residual_at]
  show resid X R r c * Ideal.rsqrt (Ideal.div (Ideal.ofBits .f32 0x00000000#32 + ∑ c' : Fin 4096, resid X R r c' * resid X R r c')
      (Ideal.ofBits .f32 0x45800000#32) + Ideal.ofBits .f32 0x358637BD#32) * w (ix1 c) = _
  rw [scale_from_zero]
  rfl

/-- The reference's first result is the normalised array. -/
theorem normed_eq : val_main_v14 (F := Ideal) X R w = normedArr X R w := by
  funext i
  obtain ⟨r, c, rfl⟩ : ∃ (r : Fin 8192) (c : Fin 4096), i = ix2 r c := ⟨i 0, i 1, eq_ix2 i⟩
  exact normed_at X R w r c

/-- The reference's second result is the all-reduced array plus the residual. -/
theorem resid_eq : val_main_v1 (F := Ideal) X R = residArr X R := by
  funext i
  obtain ⟨r, c, rfl⟩ : ∃ (r : Fin 8192) (c : Fin 4096), i = ix2 r c := ⟨i 0, i 1, eq_ix2 i⟩
  exact sum_plus_residual_at X R r c

end Cert.RefValue

end
-- ==== Proof.BlockValue.lean ====
/-
  One grid step of the kernel, read entry by entry on the extended reals.

  A step holds a block of 64 rows: the eight ranks' 64 x 4096 slices (one staged [8, 64, 4096] block), the residual's
  64 x 4096 block and the [1, 4096] weight row. The body adds rank 0's slice and the residual, then ranks 1 to 7 one
  after the other; stores that as the residual output; squares it, sums each row over its 4096 lanes, divides by 4096.0,
  adds ε, takes the reciprocal square root, and multiplies the row by it and by the weights. Entry (a, b) of the two
  stored blocks is therefore the specification's entry of the block's own rows: the nine-term sum in another order, and
  row a's scale, which depends on row a of this block alone because a block spans every column.
-/
import proofs.«136057_j4492535792389_2_alg».proof.Proof.Gen.KernelIdeal.Value
import proofs.«136057_j4492535792389_2_alg».proof.Proof.RmsSpec
import Idealize.ShloMosaic.PureOps.Ideal.Laws
import Idealize.ShloMosaic.Lib.ValueIdx

noncomputable section

open scoped BigOperators
open Idealize.ShloMosaic Idealize.ShloMosaic.ValueIdx

namespace Cert.BlockValue

open Cert.KernelIdeal Cert.KernelIdeal.Gen Cert.RmsSpec

variable (x0 : Vec Ideal S8x64x4096 .f32) (x1 : Vec Ideal S64x4096 .f32) (x2 : Vec Ideal S1x4096 .f32)

/-! ## The loads -/

/-- Rank k's slice of the staged block, a [1, 64, 4096] load at offset (k, 0, 0), read at row a and column b. -/
theorem rank_slice_at (k : Nat) (hk : k < 8)
    (inb : ∀ d, (![k, 0, 0] : Fin 3 → Nat) d + S1x64x4096.size d ≤ S8x64x4096.size d)
    (j : S1x64x4096.Idx) (a : Fin 64) (b : Fin 4096) (h1 : (j 1).val = a.val) (h2 : (j 2).val = b.val) :
    View.ld x0 (Rect.unit (s := S8x64x4096) ![k, 0, 0] S1x64x4096.size inb) j = x0 (ix3 ⟨k, hk⟩ a b) := by
  refine congrArg x0 (funext fun d => Fin.ext ?_)
  match d with
  | ⟨0, _⟩ =>
    have h0 : (j 0).val < 1 := (j 0).isLt
    show k + 1 * (j 0).val = k
    omega
  | ⟨1, _⟩ => show 0 + 1 * (j 1).val = a.val; omega
  | ⟨2, _⟩ => show 0 + 1 * (j 2).val = b.val; omega

/-- The residual's block is loaded whole. -/
theorem residual_at (j : S64x4096.Idx) (a : Fin 64) (b : Fin 4096) (h0 : (j 0).val = a.val) (h1 : (j 1).val = b.val) :
    View.ld x1 r0_1 j = x1 (ix2 a b) := by
  refine congrArg x1 (funext fun d => Fin.ext ?_)
  match d with
  | ⟨0, _⟩ => show 0 + 1 * (j 0).val = a.val; omega
  | ⟨1, _⟩ => show 0 + 1 * (j 1).val = b.val; omega

/-- The weight row is loaded whole. -/
theorem weight_at (j : S1x4096.Idx) (b : Fin 4096) (h1 : (j 1).val = b.val) :
    View.ld x2 r0_9 j = x2 (ix2 (0 : Fin 1) b) := by
  refine congrArg x2 (funext fun d => Fin.ext ?_)
  match d with
  | ⟨0, _⟩ =>
    have h0 : (j 0).val < 1 := (j 0).isLt
    show 0 + 1 * (j 0).val = 0
    omega
  | ⟨1, _⟩ => show 0 + 1 * (j 1).val = b.val; omega

/-! ## The nine-term sum -/

/-- The body's chain of additions at a block index, from what each load holds there. -/
theorem chain_of (P0 : Vec Ideal S1x64x4096 .f32) (P1 : Vec Ideal S64x4096 .f32) (P2 P3 P4 P5 P6 P7 P8 : Vec Ideal S1x64x4096 .f32) (y : S64x4096.Idx)
    (p0 p1 p2 p3 p4 p5 p6 p7 p8 : EReal)
    (h0 : P0 (Value.ix4_0 y) = p0) (h1 : P1 (Value.ix4_1 y) = p1) (h2 : P2 (Value.ix4_2 y) = p2)
    (h3 : P3 (Value.ix4_3 y) = p3) (h4 : P4 (Value.ix4_4 y) = p4) (h5 : P5 (Value.ix4_5 y) = p5)
    (h6 : P6 (Value.ix4_6 y) = p6) (h7 : P7 (Value.ix4_7 y) = p7) (h8 : P8 (Value.ix4_8 y) = p8) :
    Value.E4 P0 P1 P2 P3 P4 P5 P6 P7 P8 y = p0 + p1 + p2 + p3 + p4 + p5 + p6 + p7 + p8 := by
  rw [← h0, ← h1, ← h2, ← h3, ← h4, ← h5, ← h6, ← h7, ← h8]
  rfl

/-- Entry (a, c) of the chain over the step's loads: the eight ranks' entries and the residual's, summed. -/
theorem chain_at (a : Fin 64) (c : Fin 4096) :
    Value.E4 (View.ld x0 r0_0) (View.ld x1 r0_1) (View.ld x0 r0_2) (View.ld x0 r0_3) (View.ld x0 r0_4) (View.ld x0 r0_5) (View.ld x0 r0_6) (View.ld x0 r0_7) (View.ld x0 r0_8) (ix2 a c) = acc (fun k => x0 (ix3 k a c)) (x1 (ix2 a c)) :=
  (chain_of _ _ _ _ _ _ _ _ _ (ix2 a c) _ _ _ _ _ _ _ _ _
    (rank_slice_at x0 0 (by decide) _ _ a c rfl rfl)
    (residual_at x1 _ a c rfl rfl)
    (rank_slice_at x0 1 (by decide) _ _ a c rfl rfl)
    (rank_slice_at x0 2 (by decide) _ _ a c rfl rfl)
    (rank_slice_at x0 3 (by decide) _ _ a c rfl rfl)
    (rank_slice_at x0 4 (by decide) _ _ a c rfl rfl)
    (rank_slice_at x0 5 (by decide) _ _ a c rfl rfl)
    (rank_slice_at x0 6 (by decide) _ _ a c rfl rfl)
    (rank_slice_at x0 7 (by decide) _ _ a c rfl rfl)).trans
  (acc_chain (fun k => x0 (ix3 k a c)) (x1 (ix2 a c)))

/-- The same for the vector the body squares: it is that chain, cast from [1, 64, 4096] slices. -/
theorem summed_at (a : Fin 64) (c : Fin 4096) :
    k0_pay2 (View.ld x0 r0_0) (View.ld x1 r0_1) (View.ld x0 r0_2) (View.ld x0 r0_3) (View.ld x0 r0_4) (View.ld x0 r0_5) (View.ld x0 r0_6) (View.ld x0 r0_7) (View.ld x0 r0_8) (ix2 a c) = acc (fun k => x0 (ix3 k a c)) (x1 (ix2 a c)) := by
  rw [Value.piece4_0]
  have e : r0_1.idx (ix2 a c) = ix2 a c := funext fun d => Fin.ext (by
    match d with
    | ⟨0, _⟩ => show 0 + 1 * a.val = a.val; omega
    | ⟨1, _⟩ => show 0 + 1 * c.val = c.val; omega)
  rw [e]
  exact chain_at x0 x1 a c

/-! ## A row's sum over its lanes -/

/-- The lane reduction of a [64, 4096] vector at row a is the sum of the row's 4096 entries. -/
theorem row_sum_at (v : FVec Ideal S64x4096 .f32) (hacc : (0x00000000#32 : BitVec 32) = 0x00000000#32)
    (j : S64.Idx) (a : Fin 64) (hj : (j 0).val = a.val) :
    multiReduction (F := Ideal) .add [1] S64 v 0x00000000#32 reduces_S64x4096_S64 (.inl rfl) hacc j
      = ∑ c : Fin 4096, v (ix2 a c) := by
  refine (Ideal.multiReduction_add_single v 0x00000000#32 reduces_S64x4096_S64 (.inl rfl) hacc j).trans ?_
  refine Finset.sum_congr rfl fun c _ => congrArg v (funext fun d => Fin.ext ?_)
  match d with
  | ⟨0, _⟩ => exact hj
  | ⟨1, _⟩ => rfl

/-! ## The two stored blocks -/

/-- The body's normalised value at a block index, from the chain there, the row's sum of squares and the weight. -/
theorem normed_of (P0 : Vec Ideal S1x64x4096 .f32) (P1 : Vec Ideal S64x4096 .f32) (P2 P3 P4 P5 P6 P7 P8 : Vec Ideal S1x64x4096 .f32) (P9 : Vec Ideal S1x4096 .f32) (y : S64x4096.Idx) (A S g : EReal)
    (hA : Value.E4 P0 P1 P2 P3 P4 P5 P6 P7 P8 y = A)
    (hS : multiReduction (F := Ideal) .add [1] S64 (mulf (k0_pay2 P0 P1 P2 P3 P4 P5 P6 P7 P8) (k0_pay2 P0 P1 P2 P3 P4 P5 P6 P7 P8)) 0x00000000#32
        reduces_S64x4096_S64 (.inl rfl) rfl (Value.ix3_9 y) = S)
    (hg : P9 (Value.ix3_10 y) = g) :
    Value.E3 P0 P1 P2 P3 P4 P5 P6 P7 P8 P9 y
      = A * Ideal.rsqrt (Ideal.div S (Ideal.ofBits .f32 0x45800000#32) + Ideal.ofBits .f32 0x358637BD#32) * g := by
  rw [← hA, ← hS, ← hg]
  rfl

/-- THE RESIDUAL OUTPUT's block after the body, entry (a, b): the eight ranks' entries plus the residual's. -/
theorem resid_block (a : Fin 64) (b : Fin 4096) :
    out0_4 x0 x1 x2 (ix2 a b) = acc (fun k => x0 (ix3 k a b)) (x1 (ix2 a b)) := by
  unfold out0_4
  rw [Value.canon4_eq]
  exact chain_at x0 x1 a b

/-- THE NORMALISED OUTPUT's block after the body, entry (a, b): that entry, times row a's scale, times column b's weight. -/
theorem normed_block (a : Fin 64) (b : Fin 4096) :
    out0_3 x0 x1 x2 (ix2 a b)
      = normed (fun c => acc (fun k => x0 (ix3 k a c)) (x1 (ix2 a c))) (acc (fun k => x0 (ix3 k a b)) (x1 (ix2 a b)))
          (x2 (ix2 (0 : Fin 1) b)) := by
  unfold out0_3
  rw [Value.canon3_eq]
  refine (normed_of _ _ _ _ _ _ _ _ _ _ (ix2 a b) _
    (∑ c : Fin 4096, acc (fun k => x0 (ix3 k a c)) (x1 (ix2 a c)) * acc (fun k => x0 (ix3 k a c)) (x1 (ix2 a c))) _
    (chain_at x0 x1 a b)
    ((row_sum_at _ rfl _ a rfl).trans (Finset.sum_congr rfl fun c _ => ?_))
    (weight_at x2 _ b rfl)).trans ?_
  · show k0_pay2 (View.ld x0 r0_0) (View.ld x1 r0_1) (View.ld x0 r0_2) (View.ld x0 r0_3) (View.ld x0 r0_4) (View.ld x0 r0_5) (View.ld x0 r0_6) (View.ld x0 r0_7) (View.ld x0 r0_8) (ix2 a c) * k0_pay2 (View.ld x0 r0_0) (View.ld x1 r0_1) (View.ld x0 r0_2) (View.ld x0 r0_3) (View.ld x0 r0_4) (View.ld x0 r0_5) (View.ld x0 r0_6) (View.ld x0 r0_7) (View.ld x0 r0_8) (ix2 a c) = _
    rw [summed_at]
  · rfl

end Cert.BlockValue

end
-- ==== Proof.ArrayValue.lean ====
/-
  From the kernel's 128 grid steps to its two result arrays.

  Step t stages rows 64 t to 64 t + 63 of every rank (block (0, t, 0) of the [8, 8192, 4096] argument) and of the
  residual (block (t, 0)), the whole weight row (block (0, 0) of the [1, 4096] reshaped weights, always the same), and
  writes back rows 64 t to 64 t + 63 of both results. A block spans all 4096 columns, so the rows a step normalises are
  whole rows of the array: what the step writes is the specification's array read through the step's block. The 128
  row blocks are disjoint and fill the 8192 rows (row r lies in block r / 64), so after the last step the two result
  arrays are the specification's two arrays.
-/
import proofs.«136057_j4492535792389_2_alg».proof.Proof.Gen.KernelIdeal.Value
import proofs.«136057_j4492535792389_2_alg».proof.Proof.RmsSpec
import proofs.«136057_j4492535792389_2_alg».proof.Proof.BlockValue
import Idealize.ShloMosaic.Lib.Pipeline.Value
import Idealize.ShloMosaic.Lib.StableHlo.Run
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.ArrayValue

open Cert.KernelIdeal Cert.KernelIdeal.Gen Cert.RmsSpec

variable (m : (ℓ : Loc nD τ sig) → Buf (Elt Ideal) ℓ) (ρ : Dev nD → PrngReg)

/-- The three argument arrays as launched. -/
abbrev argX (c : Dev nD) : SX.Idx → EReal := m ((c : Thread nD τ).loc main_arg0)
abbrev argR (c : Dev nD) : SR.Idx → EReal := m ((c : Thread nD τ).loc main_arg1)
abbrev argW (c : Dev nD) : SW.Idx → EReal := m ((c : Thread nD τ).loc main_arg2)

/-! ## Where step t's blocks sit -/

/-- The five index maps over the 128 steps: the ranks' block is (0, t, 0), the residual's and both results' (t, 0),
    the weights' (0, 0). -/
theorem block_indices : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem step_lt (t : Fin cfg0.N) : t.val < 128 :=
  lt_of_lt_of_eq t.isLt (show cfg0.N = 128 from N_0)

/-! ## The staged blocks, read off the argument arrays -/

/-- Rank k, row a, column b of step t's staged block is rank k, row 64 t + a, column b of the first argument. -/
theorem ranks_block_at (c : Dev nD) (t : Fin cfg0.N) (k : Fin 8) (a : Fin 64) (b : Fin 4096) (r : Fin 8192)
    (hr : r.val = t.val * 64 + a.val) :
    (iblk m c 0 t : Vec Ideal S8x64x4096 .f32) (ix3 k a b) = argX m c (ix3 k r b) := by
  obtain ⟨e0, e1, e2, -⟩ := block_indices t
  unfold iblk
  rw [View.read_apply]
  show V m c main_arg0 _ = _
  rw [V_main_arg0]
  refine congrArg (m ((c : Thread nD τ).loc main_arg0)) (funext fun d => Fin.ext ?_)
  match d with
  | ⟨0, _⟩ => show win0_0.index t (0 : Fin 3) * 8 + 1 * k.val = k.val; rw [e0]; omega
  | ⟨1, _⟩ => show win0_0.index t (1 : Fin 3) * 64 + 1 * a.val = r.val; rw [e1, hr]; omega
  | ⟨2, _⟩ => show win0_0.index t (2 : Fin 3) * 4096 + 1 * b.val = b.val; rw [e2]; omega

/-- Row a, column b of step t's residual block is row 64 t + a, column b of the second argument. -/
theorem residual_block_at (c : Dev nD) (t : Fin cfg0.N) (a : Fin 64) (b : Fin 4096) (r : Fin 8192)
    (hr : r.val = t.val * 64 + a.val) :
    (iblk m c 1 t : Vec Ideal S64x4096 .f32) (ix2 a b) = argR m c (ix2 r b) := by
  obtain ⟨-, -, -, e3, e4, -⟩ := block_indices t
  unfold iblk
  rw [View.read_apply]
  show V m c main_arg1 _ = _
  rw [V_main_arg1]
  refine congrArg (m ((c : Thread nD τ).loc main_arg1)) (funext fun d => Fin.ext ?_)
  match d with
  | ⟨0, _⟩ => show win0_1.index t (0 : Fin 2) * 64 + 1 * a.val = r.val; rw [e3, hr]; omega
  | ⟨1, _⟩ => show win0_1.index t (1 : Fin 2) * 4096 + 1 * b.val = b.val; rw [e4]; omega

/-- The [1, 4096] array the weight window stages is the third argument reshaped (the one host operation before the
    launch). -/
theorem weight_row (c : Dev nD) :
    (V m c main_v0 : S1x4096.Idx → EReal) = shapeCast S1x4096 (argW m c) shapeCasts_S4096_S1x4096 := by
  dsimp only [V, hostOps0]
  after_results
  rfl

/-- Column b of the staged weight row is entry b of the third argument, at every step. -/
theorem weight_block_at (c : Dev nD) (t : Fin cfg0.N) (b : Fin 4096) :
    (iblk m c 2 t : Vec Ideal S1x4096 .f32) (ix2 (0 : Fin 1) b) = argW m c (ix1 b) := by
  obtain ⟨-, -, -, -, -, e5, e6, -⟩ := block_indices t
  unfold iblk
  rw [View.read_apply]
  show V m c main_v0 (((cfg0.win 2).blk t).view.emb (ix2 (0 : Fin 1) b)) = _
  have hemb : ((cfg0.win 2).blk t).view.emb (ix2 (0 : Fin 1) b) = ix2 (0 : Fin 1) b :=
    funext fun d => Fin.ext (by
      match d with
      | ⟨0, _⟩ => show win0_2.index t (0 : Fin 2) * 1 + 1 * 0 = 0; rw [e5]
      | ⟨1, _⟩ => show win0_2.index t (1 : Fin 2) * 4096 + 1 * b.val = b.val; rw [e6]; omega)
  rw [hemb, weight_row]
  exact shapeCast_apply _ _ (ix2 (0 : Fin 1) b) (ix1 b) (by
    rw [Shape.rowMajor_val_one, Shape.rowMajor_val_two]
    show b.val = 0 * 4096 + b.val
    omega)

/-- So entry (a, c') of step t's nine-term sum is entry (64 t + a, c') of the all-reduced array plus the residual. -/
theorem resid_of_blocks (c : Dev nD) (t : Fin cfg0.N) (a : Fin 64) (b : Fin 4096) (r : Fin 8192)
    (hr : r.val = t.val * 64 + a.val) :
    acc (fun k => (iblk m c 0 t : Vec Ideal S8x64x4096 .f32) (ix3 k a b)) ((iblk m c 1 t : Vec Ideal S64x4096 .f32) (ix2 a b))
      = resid (argX m c) (argR m c) r b := by
  unfold resid
  rw [residual_block_at m c t a b r hr,
    show (fun k => (iblk m c 0 t : Vec Ideal S8x64x4096 .f32) (ix3 k a b)) = fun k => argX m c (ix3 k r b) from
      funext fun k => ranks_block_at m c t k a b r hr]

/-- A result window's block at step t: row a, column b of the block is row 64 t + a, column b of the array. -/
theorem out_emb3 (t : Fin cfg0.N) (a : Fin 64) (b : Fin 4096) (r : Fin 8192) (hr : r.val = t.val * 64 + a.val) :
    ((cfg0.win 3).blk t).view.emb (ix2 a b) = ix2 r b := by
  obtain ⟨-, -, -, -, -, -, -, e7, e8, -⟩ := block_indices t
  refine funext fun d => Fin.ext ?_
  match d with
  | ⟨0, _⟩ => show win0_3.index t (0 : Fin 2) * 64 + 1 * a.val = r.val; rw [e7, hr]; omega
  | ⟨1, _⟩ => show win0_3.index t (1 : Fin 2) * 4096 + 1 * b.val = b.val; rw [e8]; omega

theorem out_emb4 (t : Fin cfg0.N) (a : Fin 64) (b : Fin 4096) (r : Fin 8192) (hr : r.val = t.val * 64 + a.val) :
    ((cfg0.win 4).blk t).view.emb (ix2 a b) = ix2 r b := by
  obtain ⟨-, -, -, -, -, -, -, -, -, e9, e10⟩ := block_indices t
  refine funext fun d => Fin.ext ?_
  match d with
  | ⟨0, _⟩ => show win0_4.index t (0 : Fin 2) * 64 + 1 * a.val = r.val; rw [e9, hr]; omega
  | ⟨1, _⟩ => show win0_4.index t (1 : Fin 2) * 4096 + 1 * b.val = b.val; rw [e10]; omega

/-! ## What a step writes back -/

/-- Step t writes back block t of the all-reduced array plus the residual. -/
theorem flushed_resid (c : Dev nD) (t : Fin cfg0.N) :
    (dats m 0 c).flushed 4 t = ((cfg0.win 4).blk t).view.read (Elt Ideal) (residArr (argX m c) (argR m c)) := by
  rw [Value.flushed4]
  funext y
  obtain ⟨a, b, rfl⟩ : ∃ (a : Fin 64) (b : Fin 4096), y = ix2 a b := ⟨y 0, y 1, eq_ix2 y⟩
  have ht := step_lt t
  have hr : (⟨t.val * 64 + a.val, by omega⟩ : Fin 8192).val = t.val * 64 + a.val := rfl
  show out0_4 (iblk m c 0 t) (iblk m c 1 t) (iblk m c 2 t) (ix2 a b)
    = residArr (argX m c) (argR m c) (((cfg0.win 4).blk t).view.emb (ix2 a b))
  rw [out_emb4 t a b _ hr]
  refine (BlockValue.resid_block (iblk m c 0 t) (iblk m c 1 t) (iblk m c 2 t) a b).trans ?_
  exact resid_of_blocks m c t a b _ hr

/-- Step t writes back block t of the normalised array. -/
theorem flushed_normed (c : Dev nD) (t : Fin cfg0.N) :
    (dats m 0 c).flushed 3 t
      = ((cfg0.win 3).blk t).view.read (Elt Ideal) (normedArr (argX m c) (argR m c) (argW m c)) := by
  rw [Value.flushed3]
  funext y
  obtain ⟨a, b, rfl⟩ : ∃ (a : Fin 64) (b : Fin 4096), y = ix2 a b := ⟨y 0, y 1, eq_ix2 y⟩
  have ht := step_lt t
  have hr : (⟨t.val * 64 + a.val, by omega⟩ : Fin 8192).val = t.val * 64 + a.val := rfl
  show out0_3 (iblk m c 0 t) (iblk m c 1 t) (iblk m c 2 t) (ix2 a b)
    = normedArr (argX m c) (argR m c) (argW m c) (((cfg0.win 3).blk t).view.emb (ix2 a b))
  rw [out_emb3 t a b _ hr]
  refine (BlockValue.normed_block (iblk m c 0 t) (iblk m c 1 t) (iblk m c 2 t) a b).trans ?_
  rw [show (fun c' => acc (fun k => (iblk m c 0 t : Vec Ideal S8x64x4096 .f32) (ix3 k a c'))
        ((iblk m c 1 t : Vec Ideal S64x4096 .f32) (ix2 a c')))
      = fun c' => resid (argX m c) (argR m c) ⟨t.val * 64 + a.val, by omega⟩ c' from
      funext fun c' => resid_of_blocks m c t a c' _ hr,
    resid_of_blocks m c t a b _ hr, weight_block_at m c t b]
  rfl

/-! ## The blocks fill the arrays -/

theorem mem_blk3 (t : Fin cfg0.N) (i : S8192x4096.Idx) :
    i ∈ ((cfg0.win 3).blk t).view.set ↔ ∀ a : Fin 2, win0_3.index t a * S64x4096.size a ≤ (i a).val
      ∧ (i a).val < win0_3.index t a * S64x4096.size a + S64x4096.size a := by
  show i ∈ ((View.whole main_v1_0).slice (win0_3.rect t)).set ↔ _
  rw [View.set_slice_whole, Rect.mem_set_unit]
  exact Iff.rfl

theorem mem_blk4 (t : Fin cfg0.N) (i : S8192x4096.Idx) :
    i ∈ ((cfg0.win 4).blk t).view.set ↔ ∀ a : Fin 2, win0_4.index t a * S64x4096.size a ≤ (i a).val
      ∧ (i a).val < win0_4.index t a * S64x4096.size a + S64x4096.size a := by
  show i ∈ ((View.whole main_v1_1).slice (win0_4.rect t)).set ↔ _
  rw [View.set_slice_whole, Rect.mem_set_unit]
  exact Iff.rfl

/-- Row r of either result lies in the block of step r / 64. -/
theorem cover3 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨(i 0).val / 64, by rw [hN]; omega⟩
  have htv : t.val = (i 0).val / 64 := rfl
  obtain ⟨-, -, -, -, -, -, -, e7, e8, -⟩ := block_indices t
  refine ⟨t, flush0_3 t, ?_⟩
  rw [mem_blk3]
  intro a
  match a with
  | ⟨0, _⟩ =>
    show win0_3.index t (0 : Fin 2) * 64 ≤ (i 0).val ∧ (i 0).val < win0_3.index t (0 : Fin 2) * 64 + 64
    rw [e7, htv]; omega
  | ⟨1, _⟩ =>
    show win0_3.index t (1 : Fin 2) * 4096 ≤ (i 1).val ∧ (i 1).val < win0_3.index t (1 : Fin 2) * 4096 + 4096
    rw [e8]; omega

theorem cover4 (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  let t : Fin cfg0.N := ⟨(i 0).val / 64, by rw [hN]; omega⟩
  have htv : t.val = (i 0).val / 64 := rfl
  obtain ⟨-, -, -, -, -, -, -, -, -, e9, e10⟩ := block_indices t
  refine ⟨t, flush0_4 t, ?_⟩
  rw [mem_blk4]
  intro a
  match a with
  | ⟨0, _⟩ =>
    show win0_4.index t (0 : Fin 2) * 64 ≤ (i 0).val ∧ (i 0).val < win0_4.index t (0 : Fin 2) * 64 + 64
    rw [e9, htv]; omega
  | ⟨1, _⟩ =>
    show win0_4.index t (1 : Fin 2) * 4096 ≤ (i 1).val ∧ (i 1).val < win0_4.index t (1 : Fin 2) * 4096 + 4096
    rw [e10]; omega

/-! ## The arrays after the last step, and the run -/

/-- The first result array ends as the normalised array of the arguments. -/
theorem final_normed (c : Dev nD) :
    (dats m 0 c).arrAt 3 cfg0.N = normedArr (argX m c) (argR m c) (argW m c) :=
  (dats m 0 c).arrAt_eq_of_cover 3 (normedArr (argX m c) (argR m c) (argW m c))
    (fun t _ => flushed_normed m c t) cover3

/-- The second result array ends as the all-reduced array plus the residual. -/
theorem final_resid (c : Dev nD) :
    (dats m 0 c).arrAt 4 cfg0.N = residArr (argX m c) (argR m c) :=
  (dats m 0 c).arrAt_eq_of_cover 4 (residArr (argX m c) (argR m c))
    (fun t _ => flushed_resid m c t) cover4

/-- Every weakly fair execution of the kernel's program ends with the two results at the specification's arrays of the
    arguments as launched, and the arguments unchanged. -/
theorem run : θ_run defs (onTc (τ := τ) (main (F := Ideal))) ⟨m, fun _ => 0, ρ⟩ fun r => ∀ c : Dev nD,
      r.2.mem ((c : Thread nD τ).loc main_v1_0) = normedArr (argX m c) (argR m c) (argW m c)
      ∧ r.2.mem ((c : Thread nD τ).loc main_v1_1) = residArr (argX m c) (argR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_normed m c), (h c).2.1.trans (final_resid m c), (h c).2.2⟩)
    (Value.run_blocks m ρ)

end Cert.ArrayValue

end
-- ==== Proof.lean ====
/-
  All-reduce over eight ranks, residual add and RMS normalisation: the Pallas kernel against its jnp reference.

  Both programs compute, for x : [8, 8192, 4096], res : [8192, 4096], w : [4096],
      a(r, c)   = (Σ_k x(k, r, c)) + res(r, c)                        (the second result)
      out(r, c) = a(r, c) · rsqrt((Σ_c' a(r, c')²) / 4096 + ε) · w(c)   (the first result),
  read on the extended reals (Proof/RmsSpec.lean). The reference does it on whole arrays, its two sums starting from a
  zero constant (Proof/RefValue.lean). The kernel does it 64 rows at a time over a grid of 128 steps, adding rank 0 and
  the residual first and the other ranks after (Proof/BlockValue.lean: one step, entry by entry); a step's block spans
  every column, so the rows it normalises are whole rows, and the 128 row blocks fill the arrays
  (Proof/ArrayValue.lean). The two orders of the nine summands agree because addition of extended reals is commutative
  and associative; the division by 4096.0, ε and the reciprocal square root are the same operations on the same words
  in both programs. No entry has to be finite for any of this, so the precondition is not opened.

  The three frames are the generated ones (the reference's is its generated run with the results dropped); the
  idealisation rewrote nothing in the kernel, so there is nothing to preserve.
-/
import proofs.«136057_j4492535792389_2_alg».proof.Defs
import proofs.«136057_j4492535792389_2_alg».proof.Proof.Gen.Kernel
import proofs.«136057_j4492535792389_2_alg».proof.Proof.Gen.Kernel.Skeleton
import proofs.«136057_j4492535792389_2_alg».proof.Proof.Gen.Kernel.Launch
import proofs.«136057_j4492535792389_2_alg».proof.Proof.Gen.Kernel.Points
import proofs.«136057_j4492535792389_2_alg».proof.Proof.Gen.Kernel.Frame
import proofs.«136057_j4492535792389_2_alg».proof.Proof.Gen.KernelIdeal
import proofs.«136057_j4492535792389_2_alg».proof.Proof.Gen.KernelIdeal.Skeleton
import proofs.«136057_j4492535792389_2_alg».proof.Proof.Gen.KernelIdeal.Launch
import proofs.«136057_j4492535792389_2_alg».proof.Proof.Gen.KernelIdeal.Points
import proofs.«136057_j4492535792389_2_alg».proof.Proof.Gen.KernelIdeal.Frame
import proofs.«136057_j4492535792389_2_alg».proof.Proof.Gen.ReferenceIdeal
import proofs.«136057_j4492535792389_2_alg».proof.Proof.Gen.Pre_finite_inputs
import proofs.«136057_j4492535792389_2_alg».proof.Proof.Gen.KernelIdeal.Value
import proofs.«136057_j4492535792389_2_alg».proof.Proof.Gen.ReferenceIdeal.Run
import proofs.«136057_j4492535792389_2_alg».proof.Proof.Gen.ReferenceIdeal.Read
import proofs.«136057_j4492535792389_2_alg».proof.Proof.RmsSpec
import proofs.«136057_j4492535792389_2_alg».proof.Proof.RefValue
import proofs.«136057_j4492535792389_2_alg».proof.Proof.ArrayValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with the normalised array and the all-reduced array plus the residual
    of those arguments. -/
theorem algebraic : Cert.algebraic_KernelIdeal_ReferenceIdeal := by
  intro m ρ m' ρ' _ hagree
  refine ⟨fun c => Cert.RmsSpec.normedArr (Cert.ArrayValue.argX m c) (Cert.ArrayValue.argR m c) (Cert.ArrayValue.argW m c),
    fun c => Cert.RmsSpec.residArr (Cert.ArrayValue.argX m c) (Cert.ArrayValue.argR m c),
    Cert.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.RefValue.normed_eq,
      (hagree c).1, (hagree c).2.1, (hagree c).2.2]
  · rw [(h c).2.1, Cert.ReferenceIdeal.Read.val_main_v1_eq, Cert.RefValue.resid_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
